-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S14336x4096 : Shape := ⟨2, ![14336, 4096]⟩
abbrev S112x32 : Shape := ⟨2, ![112, 32]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S112x32 : S_.BroadcastsInDim S112x32 (![] : Fin 0 → Fin S112x32.rank)
  reducesTo_S112x32_S_d0_1 : S112x32.ReducesTo [0, 1] S_

variable [Facts]

def fn {F : FTy → Type} [FloatOps F] (main_arg0 : FVec F S8192x4096 .f32) (main_arg1 : FVec F S14336x4096 .f32) (main_arg2 : FVec F S112x32 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S112x32 .f32 := Host.absf main_arg2
  let main_cst_2 : FVec F S_ .f32 := constant S_ .f32 0x7F800000#32
  let main_v10 : FVec F S112x32 .f32 := broadcastInDim S112x32 ![] bcast_S_S112x32 main_cst_2
  let main_v11 : IVec S112x32 1 := cmpf .olt main_v9 main_v10
  let main_c_3 : IVec S_ 1 := constantI S_ 1 1#1
  let main_v12 : IVec S_ 1 := (fun x v => Host.reduce IntOp.andi x v reducesTo_S112x32_S_d0_1 h_S_) main_v11 main_c_3
  let main_v13 : IVec S_ 1 := andi main_v8 main_v12
  main_v13
-- ==== Kernel.lean ====
abbrev S8192x4096 : Shape := ⟨2, ![8192, 4096]⟩
abbrev S14336x4096 : Shape := ⟨2, ![14336, 4096]⟩
abbrev S112x32 : Shape := ⟨2, ![112, 32]⟩
abbrev S112x128x32 : Shape := ⟨3, ![112, 128, 32]⟩
abbrev S14336x32 : Shape := ⟨2, ![14336, 32]⟩
abbrev S8192x14336 : Shape := ⟨2, ![8192, 14336]⟩
abbrev S1024x4096 : Shape := ⟨2, ![1024, 4096]⟩
abbrev S256x4096 : Shape := ⟨2, ![256, 4096]⟩
abbrev S256x32 : Shape := ⟨2, ![256, 32]⟩
abbrev S1024x256 : Shape := ⟨2, ![1024, 256]⟩
abbrev S1024x1024 : Shape := ⟨2, ![1024, 1024]⟩
abbrev S256x1024 : Shape := ⟨2, ![256, 1024]⟩
abbrev S256x8 : Shape := ⟨2, ![256, 8]⟩
abbrev S256x8x1 : Shape := ⟨3, ![256, 8, 1]⟩
abbrev S256x8x128 : Shape := ⟨3, ![256, 8, 128]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S14336x4096, .f32⟩
  | .hbm, ⟨2, _⟩ => ⟨S112x32, .f32⟩
  | .hbm, ⟨3, _⟩ => ⟨S8192x4096, .bf16⟩
  | .hbm, ⟨4, _⟩ => ⟨S112x128x32, .f32⟩
  | .hbm, ⟨5, _⟩ => ⟨S14336x32, .f32⟩
  | .hbm, ⟨6, _⟩ => ⟨S8192x14336, .f32⟩
  | .local _ .vmem, ⟨0, _⟩ => ⟨S1024x4096, .bf16⟩
  | .local _ .vmem, ⟨1, _⟩ => ⟨S1024x4096, .bf16⟩
  | .local _ .vmem, ⟨2, _⟩ => ⟨S256x4096, .f32⟩
  | .local _ .vmem, ⟨3, _⟩ => ⟨S256x4096, .f32⟩
  | .local _ .vmem, ⟨4, _⟩ => ⟨S256x32, .f32⟩
  | .local _ .vmem, ⟨5, _⟩ => ⟨S256x32, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S112x32_S112x128x32_0_2 : S112x32.BroadcastsInDim S112x128x32 (![0, 2] : Fin 2 → Fin S112x128x32.rank)
  shapeCasts_S112x128x32_S14336x32 : S112x128x32.ShapeCasts S14336x32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1024x4096_S1024x1024_0_0 : ∀ a, (![0, 0] : Fin 2 → Nat) a + S1024x1024.size a ≤ S1024x4096.size a
  h_S1024x1024 : 0 < S1024x1024.numel
  shapeCasts_S1024x1024_S1024x1024 : S1024x1024.ShapeCasts S1024x1024
  inb_S256x4096_S256x1024_0_0 : ∀ a, (![0, 0] : Fin 2 → Nat) a + S256x1024.size a ≤ S256x4096.size a
  h_S256x1024 : 0 < S256x1024.numel
  slices_S256x32_o0_0_S256x8 : S256x32.Slices ![0, 0] S256x8
  shapeCasts_S256x8_S256x8x1 : S256x8.ShapeCasts S256x8x1
  shapeCasts_S256x8x1_S256x8x1 : S256x8x1.ShapeCasts S256x8x1
  broadcasts_S256x8x1_S256x8x128 : S256x8x1.Broadcasts S256x8x128
  shapeCasts_S256x8x128_S256x1024 : S256x8x128.ShapeCasts S256x1024
  inb_S1024x4096_S1024x1024_0_1024 : ∀ a, (![0, 1024] : Fin 2 → Nat) a + S1024x1024.size a ≤ S1024x4096.size a
  inb_S256x4096_S256x1024_0_1024 : ∀ a, (![0, 1024] : Fin 2 → Nat) a + S256x1024.size a ≤ S256x4096.size a
  slices_S256x32_o0_8_S256x8 : S256x32.Slices ![0, 8] S256x8
  inb_S1024x4096_S1024x1024_0_2048 : ∀ a, (![0, 2048] : Fin 2 → Nat) a + S1024x1024.size a ≤ S1024x4096.size a
  inb_S256x4096_S256x1024_0_2048 : ∀ a, (![0, 2048] : Fin 2 → Nat) a + S256x1024.size a ≤ S256x4096.size a
  slices_S256x32_o0_16_S256x8 : S256x32.Slices ![0, 16] S256x8
  inb_S1024x4096_S1024x1024_0_3072 : ∀ a, (![0, 3072] : Fin 2 → Nat) a + S1024x1024.size a ≤ S1024x4096.size a
  inb_S256x4096_S256x1024_0_3072 : ∀ a, (![0, 3072] : Fin 2 → Nat) a + S256x1024.size a ≤ S256x4096.size a
  slices_S256x32_o0_24_S256x8 : S256x32.Slices ![0, 24] S256x8
  dot_S1024x1024_S256x1024_S1024x256_1_1_0_0_n_n_wf : DotDims.WF S1024x1024 S256x1024 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .f32 = 32 ∨ (Rect.block (s := S14336x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S14336x32.size a
  hwx0_2 : ∀ i : grid0.Coords, EltTy.bits .f32 = 32 ∨ (Rect.block (s := S14336x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x14336.size a
  hwx0_3 : ∀ i : grid0.Coords, EltTy.bits .f32 = 32 ∨ (Rect.block (s := S8192x14336) S1024x256.size (cc0_transform_3 i) (hinb0_3 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S14336x4096 : Shape := ⟨2, ![14336, 4096]⟩
abbrev S112x32 : Shape := ⟨2, ![112, 32]⟩
abbrev S112x128x32 : Shape := ⟨3, ![112, 128, 32]⟩
abbrev S14336x32 : Shape := ⟨2, ![14336, 32]⟩
abbrev S14336x32x128 : Shape := ⟨3, ![14336, 32, 128]⟩
abbrev S8192x14336 : Shape := ⟨2, ![8192, 14336]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S14336x4096, .f32⟩
  | .hbm, ⟨2, _⟩ => ⟨S112x32, .f32⟩
  | .hbm, ⟨3, _⟩ => ⟨S112x128x32, .f32⟩
  | .hbm, ⟨4, _⟩ => ⟨S14336x32, .f32⟩
  | .hbm, ⟨5, _⟩ => ⟨S14336x32x128, .f32⟩
  | .hbm, ⟨6, _⟩ => ⟨S14336x4096, .f32⟩
  | .hbm, ⟨7, _⟩ => ⟨S14336x4096, .f32⟩
  | .hbm, ⟨8, _⟩ => ⟨S8192x14336, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S112x32_S112x128x32_0_2 : S112x32.BroadcastsInDim S112x128x32 (![0, 2] : Fin 2 → Fin S112x128x32.rank)
  shapeCasts_S112x128x32_S14336x32 : S112x128x32.ShapeCasts S14336x32
  bcast_S14336x32_S14336x32x128_0_1 : S14336x32.BroadcastsInDim S14336x32x128 (![0, 1] : Fin 2 → Fin S14336x32x128.rank)
  shapeCasts_S14336x32x128_S14336x4096 : S14336x32x128.ShapeCasts S14336x4096
  dot_S8192x4096_S14336x4096_S8192x14336_1_1_0_0_n_n_wf : DotDims.WF S8192x4096 S14336x4096 S8192x14336 [1] [1] [0] [0] [] []

variable [Facts₀]

def dot_S8192x4096_S14336x4096_S8192x14336_1_1_0_0_n_n : DotDims S8192x4096 S14336x4096 S8192x14336 where
  lhsContracting := [1]
  rhsContracting := [1]
  lhsNonContracting := [0]
  rhsNonContracting := [0]
  lhsBatch := []
  rhsBatch := []
  wf := dot_S8192x4096_S14336x4096_S8192x14336_1_1_0_0_n_n_wf

class Facts : Prop extends Facts₀ where

variable [Facts]
-- ==== Proof.Chunk.lean ====
/-
  One run of 1024 columns, as the kernel body computes it.

  For a run starting at column `1024·c` the body takes the 1024 × 1024 piece `xa` of its activation block, the
  256 × 1024 piece `wa` of its weight block and the eight scale columns `8c … 8c+7` of its 256 × 32 scale block
  `sv`; it repeats each scale 128 times along the row (slice, add a unit axis, broadcast over 128 lanes, flatten:
  column `k` of the result is scale column `8c + k / 128`), multiplies the weights by them, and contracts both
  operands' column axes in a matrix product started from zero.  With exact arithmetic, entry `(p, q)` of the
  product is  ∑ₖ xa (p, k) · (wa (q, k) · sv (q, 8c + k / 128)),  k over the run's 1024 columns: `chunk_apply`.
-/
import proofs.«177809_j41334765257142_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Chunk

open Cert.KernelIdeal Cert.KernelIdeal.Gen

/-- The matrix product's dimension numbers: both operands contract their column axis. -/
abbrev D := dot_S1024x1024_S256x1024_S1024x256_1_1_0_0_n_n

/-- The scales of columns `os … os+7` of the scale block, each repeated over its 128 weight columns. -/
def spread {F : FTy → Type} [FloatOps F] (os : Nat) (hs : S256x32.Slices ![0, os] S256x8) (sv : FVec F S256x32 .f32) :
    FVec F S256x1024 .f32 :=
  shapeCast S256x1024 (broadcastTo S256x8x128 (shapeCast S256x8x1 (shapeCast S256x8x1 (extractStridedSlice S256x8 ![0, os] sv hs)
    shapeCasts_S256x8_S256x8x1) shapeCasts_S256x8x1_S256x8x1) broadcasts_S256x8x1_S256x8x128) shapeCasts_S256x8x128_S256x1024

/-- One run's partial product: the activations' piece against the dequantised weights' piece, from a zero accumulator. -/
def chunk {F : FTy → Type} [FloatOps F] (os : Nat) (hs : S256x32.Slices ![0, os] S256x8) (sv : FVec F S256x32 .f32)
    (xa : FVec F S1024x1024 .bf16) (wa : FVec F S256x1024 .f32) : FVec F S1024x256 .f32 :=
  matmul D none (shapeCast S1024x1024 xa shapeCasts_S1024x1024_S1024x1024)
    (truncf .bf16 (mulf wa (spread os hs sv)) bitsLt_bf16_f32) (constant S1024x256 .f32 0x00000000#32)

/-- The output's row coordinate is the left operand's row; -/
theorem lhs0 (j : S1024x256.Idx) (q : D.contr.Idx) : (D.lhsIdx j q 0).val = (j 0).val := by
  unfold DotDims.lhsIdx
  rw [dif_neg (show ¬(0 : Fin S1024x1024.rank) ∈ D.lhsBatch by decide), dif_pos (show (0 : Fin S1024x1024.rank) ∈ D.lhsNonContracting by decide)]
  rfl
/-- its column coordinate is the right operand's row. -/
theorem rhs0 (j : S1024x256.Idx) (q : D.contr.Idx) : (D.rhsIdx j q 0).val = (j 1).val := by
  unfold DotDims.rhsIdx
  rw [dif_neg (show ¬(0 : Fin S256x1024.rank) ∈ D.rhsBatch by decide), dif_pos (show (0 : Fin S256x1024.rank) ∈ D.rhsNonContracting by decide)]
  rfl

/-- The repeated scales read at `(q, k)`: flattening `(q, b, l) ↦ (q, 128·b + l)` sends column `k` back to lane
    `k % 128` of scale `b = k / 128`, the broadcast forgets the lane, and the slice shifts `b` by `os`. -/
theorem spread_apply (os : Nat) (hs : S256x32.Slices ![0, os] S256x8) (hos : os + 8 ≤ 32) (sv : FVec Ideal S256x32 .f32)
    (q : Fin 256) (k : Fin 1024) :
    spread os hs sv (ix2 q k) = sv (ix2 q ⟨os + k.val / 128, by have := k.isLt; omega⟩) := by
  have hk := k.isLt
  unfold spread
  refine (shapeCast_apply _ _ (ix2 q k) (ix3 q (⟨k.val / 128, by omega⟩ : Fin 8) (⟨k.val % 128, by omega⟩ : Fin 128)) ?_).trans ?_
  · rw [Shape.rowMajor_val_three, Shape.rowMajor_val_two]
    show (q.val * 8 + k.val / 128) * 128 + k.val % 128 = q.val * 1024 + k.val
    omega
  refine (broadcastTo_apply _ _ _ (ix3 q (⟨k.val / 128, by omega⟩ : Fin 8) (0 : Fin 1)) ?_).trans ?_
  · intro a
    match a with
    | ⟨0, _⟩ => rfl
    | ⟨1, _⟩ => rfl
    | ⟨2, _⟩ => rfl
  rw [shapeCast_self]
  refine (shapeCast_apply _ _ _ (ix2 q (⟨k.val / 128, by omega⟩ : Fin 8)) ?_).trans ?_
  · rw [Shape.rowMajor_val_three, Shape.rowMajor_val_two]
    show q.val * 8 + k.val / 128 = (q.val * 8 + k.val / 128) * 1 + 0
    omega
  exact slice2_axis1_apply os sv hs q _ _ rfl

/-- Entry `(p, q)` of one run's partial product, over the extended reals (a change of float format is the identity
    there, and a product into a zero accumulator is the plain sum over the contracted axis). -/
theorem chunk_apply (os : Nat) (hs : S256x32.Slices ![0, os] S256x8) (hos : os + 8 ≤ 32) (sv : FVec Ideal S256x32 .f32)
    (xa : FVec Ideal S1024x1024 .bf16) (wa : FVec Ideal S256x1024 .f32) (p : Fin 1024) (q : Fin 256) :
    chunk os hs sv xa wa (ix2 p q)
      = ∑ k : Fin 1024, xa (ix2 p k) * (wa (ix2 q k) * sv (ix2 q ⟨os + k.val / 128, by have := k.isLt; omega⟩)) := by
  unfold chunk
  rw [shapeCast_self]
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun a => Fin.ext (by
    match a with
    | ⟨0, _⟩ => exact lhs0 _ _
    | ⟨1, _⟩ => exact (D.lhsIdx_val_of_single rfl _ _).trans hk)
  have er : D.rhsIdx (ix2 p q) ((contrEquiv1 D 1024 rfl rfl).symm k) = ix2 q k := funext fun a => Fin.ext (by
    match a with
    | ⟨0, _⟩ => exact rhs0 _ _
    | ⟨1, _⟩ => exact (D.rhsIdx_val_of_single rfl _ _).trans hk)
  rw [el, er]
  show xa (ix2 p k) * (wa (ix2 q k) * _) = _
  rw [spread_apply os hs hos sv q k]

end Cert.KernelIdeal.Chunk

end
-- ==== Proof.Spec.lean ====
/-
  The mathematics of the certificate, with no program in sight.

  A weight matrix `w` of 14336 × 4096 entries is stored with one scale per 128 × 128 block: the scale of entry
  `(o, k)` is `s (o / 128, k / 128)`.  The linear layer's output is
      out (t, o) = ∑ₖ x (t, k) · (w (o, k) · s (o / 128, k / 128)),      k over all 4096 input features.
  One program computes that sum as it stands; the other cuts the 4096 features into four runs of 1024 columns, sums
  each run, and adds the four partial sums, in order, onto a zero.  Over the extended reals addition is
  commutative and associative with neutral element 0 (no cancellation or distributivity is used, so no finiteness is
  needed), hence the two agree: `chain_eq_sum`.
-/
import Idealize.ShloMosaic.PureOps.Ideal
import Idealize.ShloMosaic.Lib.ValueIdx

noncomputable section

namespace Cert.Spec

open Idealize.ShloMosaic Idealize.ShloMosaic.ValueIdx

/-- The activations, the weights, the per-block scales and the output, as index sets. -/
abbrev SX : Shape := ⟨2, ![8192, 4096]⟩
abbrev SW : Shape := ⟨2, ![14336, 4096]⟩
abbrev SS : Shape := ⟨2, ![112, 32]⟩
abbrev SO : Shape := ⟨2, ![8192, 14336]⟩

/-- The scale that applies to weight entry `(o, k)`: that of its 128 × 128 block. -/
def scaleOf (s : SS.Idx → EReal) (o : Fin 14336) (k : Fin 4096) : EReal :=
  s (ix2 (⟨o.val / 128, by have := o.isLt; omega⟩ : Fin 112) (⟨k.val / 128, by have := k.isLt; omega⟩ : Fin 32))

/-- Output entry `(t, o)`: row `t` of the activations against row `o` of the dequantised weights. -/
def entry (x : SX.Idx → EReal) (w : SW.Idx → EReal) (s : SS.Idx → EReal) (t : Fin 8192) (o : Fin 14336) : EReal :=
  ∑ k : Fin 4096, x (ix2 t k) * (w (ix2 o k) * scaleOf s o k)

/-- The whole output array. -/
def result (x : SX.Idx → EReal) (w : SW.Idx → EReal) (s : SS.Idx → EReal) : SO.Idx → EReal :=
  fun i => entry x w s (i 0) (i 1)

/-- Column `k` of the `c`-th run of 1024 columns. -/
abbrev col (c : Nat) (hc : c < 4) (k : Fin 1024) : Fin 4096 := ⟨1024 * c + k.val, by have := k.isLt; omega⟩

/-- A sum over 4096 columns is the sum, over the four runs, of the sums over each run's 1024 columns. -/
theorem sum_runs {M : Type*} [AddCommMonoid M] (f : Fin 4096 → M) :
    ∑ k, f k = ∑ c : Fin 4, ∑ k : Fin 1024, f (col c.val c.isLt k) := by
  rw [← Equiv.sum_comp (finProdFinEquiv (m := 4) (n := 1024)) f, Fintype.sum_prod_type]
  refine Finset.sum_congr rfl fun c _ => Finset.sum_congr rfl fun k _ => congrArg f (Fin.ext ?_)
  show k.val + 1024 * c.val = 1024 * c.val + k.val
  omega

/-- The four partial sums added in order onto zero are the whole sum. -/
theorem chain_eq_sum {M : Type*} [AddCommMonoid M] (f : Fin 4096 → M) :
    (((0 + ∑ k : Fin 1024, f (col 0 (by decide) k)) + ∑ k : Fin 1024, f (col 1 (by decide) k))
        + ∑ k : Fin 1024, f (col 2 (by decide) k)) + ∑ k : Fin 1024, f (col 3 (by decide) k)
      = ∑ k, f k := by
  rw [sum_runs f, Fin.sum_univ_four, zero_add]
  rfl

end Cert.Spec

end
-- ==== Proof.Body.lean ====
/-
  What one grid point's body leaves in its output block.

  The body zeroes a 1024 × 256 accumulator, then four times reads it back, adds one run's partial product
  (Chunk.lean) and stores it again, and finally copies the accumulator to the output block.  Every store and every
  read-back goes through the whole accumulator, so each read-back is exactly the value stored just before, and the
  output block is the ordered chain  (((0 + P₀) + P₁) + P₂) + P₃  of the four runs' partial products: `out_eq`.
  Over the extended reals that chain, at entry `(p, q)`, is the sum over all 4096 columns `k` of
  `x (p, k) · (w (q, k) · s (q, k / 128))` of the point's three input blocks (the run at column offset `1024·c`
  meets scale columns `8c … 8c+7`, and `8c + k / 128 = (1024c + k) / 128`): `body_apply`.
-/
import proofs.«177809_j41334765257142_2_alg».proof.Proof.Gen.KernelIdeal.Frame
import proofs.«177809_j41334765257142_2_alg».proof.Proof.Chunk
import proofs.«177809_j41334765257142_2_alg».proof.Proof.Spec
import Idealize.ShloMosaic.Lib.Tactic

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.KernelIdeal.Chunk

variable {F : FTy → Type} [FloatOps F]

theorem hz : (![0, 0] : Fin 2 → Nat) = fun _ => 0 := funext fun a => by fin_cases a <;> rfl

/-- The zero block the accumulator starts from. -/
abbrev zero : FVec F S1024x256 .f32 := broadcast S1024x256 (Scalar.ofBits .f32 0x00000000#32)

/-- The ordered chain of the four runs' partial products of the three input blocks. -/
def body (x0 : Vec F S1024x4096 .bf16) (x1 : Vec F S256x4096 .f32) (x2 : Vec F S256x32 .f32) : FVec F S1024x256 .f32 :=
  addf (addf (addf (addf zero
    (chunk 0 slices_S256x32_o0_0_S256x8 x2 (View.ld x0 (Rect.unit ![0, 0] S1024x1024.size inb_S1024x4096_S1024x1024_0_0))
      (View.ld x1 (Rect.unit ![0, 0] S256x1024.size inb_S256x4096_S256x1024_0_0))))
    (chunk 8 slices_S256x32_o0_8_S256x8 x2 (View.ld x0 (Rect.unit ![0, 1024] S1024x1024.size inb_S1024x4096_S1024x1024_0_1024))
      (View.ld x1 (Rect.unit ![0, 1024] S256x1024.size inb_S256x4096_S256x1024_0_1024))))
    (chunk 16 slices_S256x32_o0_16_S256x8 x2 (View.ld x0 (Rect.unit ![0, 2048] S1024x1024.size inb_S1024x4096_S1024x1024_0_2048))
      (View.ld x1 (Rect.unit ![0, 2048] S256x1024.size inb_S256x4096_S256x1024_0_2048))))
    (chunk 24 slices_S256x32_o0_24_S256x8 x2 (View.ld x0 (Rect.unit ![0, 3072] S1024x1024.size inb_S1024x4096_S1024x1024_0_3072))
      (View.ld x1 (Rect.unit ![0, 3072] S256x1024.size inb_S256x4096_S256x1024_0_3072)))

/-! ## The stores' values are the chain's links (any float instance) -/

theorem pay1_eq : (k0_pay1 : FVec F S1024x256 .f32) = zero := by
  unfold k0_pay1; simp only [shapeCast_self]

theorem pay3_eq (v4 : Vec F S256x32 .f32) (v6 : Vec F S1024x1024 .bf16) (v8 : Vec F S256x1024 .f32) (v16 : Vec F S1024x256 .f32) :
    k0_pay3 v4 v6 v8 v16 = addf v16 (chunk 0 slices_S256x32_o0_0_S256x8 v4 v6 v8) := by
  unfold k0_pay3 k0_pay2 chunk spread; simp only [shapeCast_self]

theorem pay4_eq (v4 : Vec F S256x32 .f32) (v22 : Vec F S1024x1024 .bf16) (v24 : Vec F S256x1024 .f32) (v32 : Vec F S1024x256 .f32) :
    k0_pay5 (k0_pay4 v4 v22 v24 v32) = addf v32 (chunk 8 slices_S256x32_o0_8_S256x8 v4 v22 v24) := by
  unfold k0_pay5 k0_pay4 k0_pay2 chunk spread; simp only [shapeCast_self]

theorem pay6_eq (v4 : Vec F S256x32 .f32) (v38 : Vec F S1024x1024 .bf16) (v40 : Vec F S256x1024 .f32) (v48 : Vec F S1024x256 .f32) :
    k0_pay6 (k0_pay2 v4) v38 v40 v48 = addf v48 (chunk 16 slices_S256x32_o0_16_S256x8 v4 v38 v40) := by
  unfold k0_pay6 k0_pay2 chunk spread; simp only [shapeCast_self]

theorem pay7_eq (v4 : Vec F S256x32 .f32) (v54 : Vec F S1024x1024 .bf16) (v56 : Vec F S256x1024 .f32) (v64 : Vec F S1024x256 .f32) :
    k0_pay7 (k0_pay2 v4) v54 v56 v64 = addf v64 (chunk 24 slices_S256x32_o0_24_S256x8 v4 v54 v56) := by
  unfold k0_pay7 k0_pay2 chunk spread; simp only [shapeCast_self]

/-- THE OUTPUT BLOCK a point's body leaves, from the point's three input blocks: the chain. Each read-back of the
    accumulator is the value of the store before it (both through the whole buffer), each input load reads its piece
    of the input block. -/
theorem out_eq (c : Dev nD) (i : grid0.Coords) (a2 : Memref sig .tc .vmem S1024x4096 .bf16) (h2 : a2.IsWhole)
    (a3 : Memref sig .tc .vmem S256x4096 .f32) (h3 : a3.IsWhole) (a4 : Memref sig .tc .vmem S256x32 .f32) (h4 : a4.IsWhole)
    (a5 : Memref sig .tc .vmem S1024x256 .f32) (h5 : a5.IsWhole) (a6 : Memref sig .tc .vmem S1024x256 .f32) (h6 : a6.IsWhole)
    (x0 : Vec F S1024x4096 .bf16) (x1 : Vec F S256x4096 .f32) (x2 : Vec F S256x32 .f32) :
    out0_A_3 c i a2 h2 a3 h3 a4 h4 a5 h5 a6 h6 x0 x1 x2 = body x0 x1 x2 := by
  unfold out0_A_3
  rw [View.read_writes_eq_canon _ _ _ (cover0_A_3 c i a2 h2 a3 h3 a4 h4 a5 h5 a6 h6 x0 x1 x2)]
  unfold kernelRun0_A
  dsimp only
  sl_unfold_words
  rw [View.canon_unit_zero hz]
  simp only [View.readCov_cons_toLoadRect, View.readAt_eq_ld, h2.read_unread, h3.read_unread, h4.read_unread,
    View.ld_unit_zero (S := S256x32) hz]
  rw [pay7_eq, pay6_eq, pay4_eq, pay3_eq, pay1_eq]
  rfl

/-! ## The chain at an entry, over the extended reals -/

/-- One column's contribution to entry `(p, q)`. -/
abbrev term (x0 : Vec Ideal S1024x4096 .bf16) (x1 : Vec Ideal S256x4096 .f32) (x2 : Vec Ideal S256x32 .f32)
    (p : Fin 1024) (q : Fin 256) (k : Fin 4096) : EReal :=
  x0 (ix2 p k) * (x1 (ix2 q k) * x2 (ix2 q (⟨k.val / 128, by have := k.isLt; omega⟩ : Fin 32)))

/-- Run `c`'s partial product at `(p, q)` is the sum of the contributions of columns `1024c … 1024c + 1023`. -/
theorem run_eq (c : Nat) (hc : c < 4) (o os : Nat) (ho : o = 1024 * c) (hos : os = 8 * c)
    (inbx : ∀ a, (![0, o] : Fin 2 → Nat) a + S1024x1024.size a ≤ S1024x4096.size a)
    (inbw : ∀ a, (![0, o] : Fin 2 → Nat) a + S256x1024.size a ≤ S256x4096.size a)
    (hs : S256x32.Slices ![0, os] S256x8)
    (x0 : Vec Ideal S1024x4096 .bf16) (x1 : Vec Ideal S256x4096 .f32) (x2 : Vec Ideal S256x32 .f32) (p : Fin 1024) (q : Fin 256) :
    chunk (F := Ideal) os hs x2 (View.ld x0 (Rect.unit ![0, o] S1024x1024.size inbx)) (View.ld x1 (Rect.unit ![0, o] S256x1024.size inbw)) (ix2 p q)
      = ∑ k : Fin 1024, term x0 x1 x2 p q (Cert.Spec.col c hc k) := by
  subst ho hos
  rw [chunk_apply _ hs (by omega)]
  refine Finset.sum_congr rfl fun k _ => ?_
  have hk := k.isLt
  have e0 : View.ld x0 (Rect.unit ![0, 1024 * c] S1024x1024.size inbx) (ix2 p k) = x0 (ix2 p (Cert.Spec.col c hc k)) :=
    congrArg x0 (funext fun a => Fin.ext (by
      match a with
      | ⟨0, _⟩ => show 0 + 1 * p.val = p.val; omega
      | ⟨1, _⟩ => show 1024 * c + 1 * k.val = 1024 * c + k.val; omega))
  have e1 : View.ld x1 (Rect.unit ![0, 1024 * c] S256x1024.size inbw) (ix2 q k) = x1 (ix2 q (Cert.Spec.col c hc k)) :=
    congrArg x1 (funext fun a => Fin.ext (by
      match a with
      | ⟨0, _⟩ => show 0 + 1 * q.val = q.val; omega
      | ⟨1, _⟩ => show 1024 * c + 1 * k.val = 1024 * c + k.val; omega))
  have e2 : (⟨8 * c + k.val / 128, by omega⟩ : Fin 32) = ⟨(Cert.Spec.col c hc k).val / 128, by have := (Cert.Spec.col c hc k).isLt; omega⟩ :=
    Fin.ext (by show 8 * c + k.val / 128 = (1024 * c + k.val) / 128; omega)
  rw [e0, e1, e2]

/-- ENTRY `(p, q)` of the output block: the whole sum over the 4096 columns. -/
theorem body_apply (x0 : Vec Ideal S1024x4096 .bf16) (x1 : Vec Ideal S256x4096 .f32) (x2 : Vec Ideal S256x32 .f32)
    (p : Fin 1024) (q : Fin 256) :
    body (F := Ideal) x0 x1 x2 (ix2 p q) = ∑ k : Fin 4096, term x0 x1 x2 p q k := by
  rw [← Cert.Spec.chain_eq_sum (term x0 x1 x2 p q)]
  unfold body
  simp only [addf_apply]
  rw [run_eq 0 (by decide) 0 0 rfl rfl, run_eq 1 (by decide) 1024 8 rfl rfl, run_eq 2 (by decide) 2048 16 rfl rfl,
    run_eq 3 (by decide) 3072 24 rfl rfl]
  congr 4
  exact Ideal.ofBits_zero_f32

end Cert.KernelIdeal.Body

end
-- ==== Proof.Blocks.lean ====
/-
  The three input blocks of a grid point, as entries of the argument arrays.

  The grid is 8 × 56: point `t` is row-block `t / 56` of the output (1024 rows each) and column-block `t % 56`
  (256 columns each).  Its activation block is rows `1024·(t/56) …` of `x` (converted to bf16 before the call, which
  changes nothing over the extended reals); its weight block is rows `256·(t%56) …` of `w`; its scale block is the
  same rows of the scales repeated 128 times down the rows (a broadcast over a new middle axis of extent 128, then a
  flattening `(g, r, b) ↦ (128·g + r, b)`), so row `o` of it is scale row `o / 128`.
-/
import proofs.«177809_j41334765257142_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The block indices of the four windows at every grid point, decided once over the 448 points: the output's block
    is `(t / 56, t % 56)`; the activations follow its row, the weights and the scales its column. -/
theorem idx_facts : ∀ t : Fin cfg0.N, win0_3.index t (0 : Fin 2) = t.val / 56 ∧ win0_3.index t (1 : Fin 2) = t.val % 56
    ∧ win0_0.index t (0 : Fin 2) = t.val / 56 ∧ win0_0.index t (1 : Fin 2) = 0
    ∧ win0_1.index t (0 : Fin 2) = t.val % 56 ∧ win0_1.index t (1 : Fin 2) = 0
    ∧ win0_2.index t (0 : Fin 2) = t.val % 56 ∧ win0_2.index t (1 : Fin 2) = 0 :=
  (by decide +kernel : ∀ t : Fin grid0.N, _)

/-- What the region finds in the bf16 copy of the activations: the activations (a change of format is the identity). -/
theorem V_x (c : Dev nD) : (V m c main_v0 : S8192x4096.Idx → EReal) = m ((c : Thread nD τ).loc main_arg0) := by
  have e : (V m c main_v0 : S8192x4096.Idx → EReal) = truncf (F := Ideal) .bf16 (m ((c : Thread nD τ).loc main_arg0) : FVec Ideal S8192x4096 .f32) bitsLt_bf16_f32 := by
    dsimp only [Gen.V, Gen.hostOps0]; after_results
  rw [e]; rfl

/-- What the region finds in the expanded scales: row `o` is scale row `o / 128`. -/
theorem V_s (c : Dev nD) (o : Fin 14336) (b : Fin 32) :
    (V m c main_v2 : S14336x32.Idx → EReal) (ix2 o b)
      = (m ((c : Thread nD τ).loc main_arg2) : S112x32.Idx → EReal) (ix2 (⟨o.val / 128, by have := o.isLt; omega⟩ : Fin 112) b) := by
  have e : (V m c main_v2 : S14336x32.Idx → EReal) = shapeCast S14336x32 (broadcastInDim S112x128x32 ![0, 2] bcast_S112x32_S112x128x32_0_2
      (m ((c : Thread nD τ).loc main_arg2) : S112x32.Idx → EReal)) shapeCasts_S112x128x32_S14336x32 := by
    dsimp only [Gen.V, Gen.hostOps0]; after_results; rfl
  rw [e]
  have ho := o.isLt
  have hb := b.isLt
  refine (shapeCast_apply _ _ (ix2 o b) (ix3 (⟨o.val / 128, by omega⟩ : Fin 112) (⟨o.val % 128, by omega⟩ : Fin 128) b) ?_).trans ?_
  · rw [Shape.rowMajor_val_three, Shape.rowMajor_val_two]
    show (o.val / 128 * 128 + o.val % 128) * 32 + b.val = o.val * 32 + b.val
    omega
  refine broadcastInDim_apply _ _ _ _ _ (fun a => ?_)
  match a with
  | ⟨0, _⟩ => show o.val / 128 = if (112 : Nat) = 1 then 0 else o.val / 128; rw [if_neg (by decide)]
  | ⟨1, _⟩ => show b.val = if (32 : Nat) = 1 then 0 else b.val; rw [if_neg (by decide)]

/-- The activation block of point `t`: rows `1024·(t/56) + p` of the activations. -/
theorem iblk_x (c : Dev nD) (t : Fin cfg0.N) (p : Fin 1024) (k : Fin 4096) (r : Fin 8192) (hr : r.val = 1024 * (t.val / 56) + p.val) :
    (iblk m c 0 t : Vec Ideal S1024x4096 .bf16) (ix2 p k)
      = (m ((c : Thread nD τ).loc main_arg0) : S8192x4096.Idx → EReal) (ix2 r k) := by
  obtain ⟨-, -, e0, e1, -, -, -, -⟩ := idx_facts t
  unfold iblk
  rw [View.read_apply]
  show V m c main_v0 _ = _
  rw [V_x]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 4096 + 1 * k.val = k.val; rw [e1]; omega

/-- The weight block of point `t`: rows `256·(t%56) + q` of the weights. -/
theorem iblk_w (c : Dev nD) (t : Fin cfg0.N) (q : Fin 256) (k : Fin 4096) (o : Fin 14336) (ho : o.val = 256 * (t.val % 56) + q.val) :
    (iblk m c 1 t : Vec Ideal S256x4096 .f32) (ix2 q k)
      = (m ((c : Thread nD τ).loc main_arg1) : S14336x4096.Idx → EReal) (ix2 o k) := by
  obtain ⟨-, -, -, -, e0, e1, -, -⟩ := idx_facts t
  unfold iblk
  rw [View.read_apply]
  show V m c main_arg1 _ = _
  rw [V_main_arg1]
  congr 1
  funext a
  apply Fin.ext
  match a with
  | ⟨0, _⟩ => show win0_1.index t (0 : Fin 2) * 256 + 1 * q.val = o.val; rw [e0, ho]; omega
  | ⟨1, _⟩ => show win0_1.index t (1 : Fin 2) * 4096 + 1 * k.val = k.val; rw [e1]; omega

/-- The scale block of point `t`: its row `q` is scale row `(256·(t%56) + q) / 128`. -/
theorem iblk_s (c : Dev nD) (t : Fin cfg0.N) (q : Fin 256) (b : Fin 32) (o : Fin 14336) (ho : o.val = 256 * (t.val % 56) + q.val) :
    (iblk m c 2 t : Vec Ideal S256x32 .f32) (ix2 q b)
      = (m ((c : Thread nD τ).loc main_arg2) : S112x32.Idx → EReal) (ix2 (⟨o.val / 128, by have := o.isLt; omega⟩ : Fin 112) b) := by
  obtain ⟨-, -, -, -, -, -, e0, e1⟩ := idx_facts t
  unfold iblk
  rw [View.read_apply]
  show V m c main_v2 _ = _
  rw [← V_s m c o b]
  congr 1
  funext a
  apply Fin.ext
  match a with
  | ⟨0, _⟩ => show win0_2.index t (0 : Fin 2) * 256 + 1 * q.val = o.val; rw [e0, ho]; omega
  | ⟨1, _⟩ => show win0_2.index t (1 : Fin 2) * 32 + 1 * b.val = b.val; rw [e1]; omega

end Cert.KernelIdeal.Blocks

end
-- ==== Proof.KernelValue.lean ====
/-
  The kernel's result array, after the whole grid has run, is the specification's output.

  Point `t` writes back a 1024 × 256 block: entry `(p, q)` of it is the sum over the 4096 columns of the point's
  input blocks (Body.lean), and those blocks are rows `r = 1024·(t/56) + p` of the activations and rows
  `o = 256·(t%56) + q` of the weights and of the expanded scales (Blocks.lean) — so the entry is the
  specification's output at `(r, o)`, which is where the block's entry `(p, q)` sits in the result array:
  `flushed_eq`.  The 8 × 56 blocks tile the 8192 × 14336 array (entry `(r, o)` lies in the block of point
  `56·(r/1024) + o/256`): `cover`.  Hence the array is the specification everywhere: `final`, `run`.
-/
import proofs.«177809_j41334765257142_2_alg».proof.Proof.Gen.KernelIdeal.Value
import proofs.«177809_j41334765257142_2_alg».proof.Proof.Body
import proofs.«177809_j41334765257142_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Body Cert.KernelIdeal.Blocks

variable (m : (ℓ : Loc nD τ sig) → Buf (Elt Ideal) ℓ) (ρ : Dev nD → PrngReg)

/-- The specification's output of the three argument arrays as launched, as contents of the result array. -/
abbrev G (c : Dev nD) : Buf (Elt Ideal) ((c : Thread nD τ).loc main_v3) :=
  Cert.Spec.result (m ((c : Thread nD τ).loc main_arg0)) (m ((c : Thread nD τ).loc main_arg1)) (m ((c : Thread nD τ).loc main_arg2))

/-- Entry `(p, q)` of what point `t`'s body leaves is the specification's entry `(r, o)`, for `r`, `o` the rows the
    point's blocks start at plus `p`, `q`. -/
theorem block_entry (c : Dev nD) (t : Fin cfg0.N) (p : Fin 1024) (q : Fin 256) (r : Fin 8192) (o : Fin 14336)
    (hr : r.val = 1024 * (t.val / 56) + p.val) (ho : o.val = 256 * (t.val % 56) + q.val) :
    body (F := Ideal) (iblk m c 0 t) (iblk m c 1 t) (iblk m c 2 t) (ix2 p q)
      = Cert.Spec.entry (m ((c : Thread nD τ).loc main_arg0)) (m ((c : Thread nD τ).loc main_arg1)) (m ((c : Thread nD τ).loc main_arg2)) r o := by
  refine (body_apply _ _ _ p q).trans ?_
  unfold Cert.Spec.entry
  refine Finset.sum_congr rfl fun k _ => ?_
  exact congrArg₂ (· * ·) (iblk_x m c t p k r hr)
    (congrArg₂ (· * ·) (iblk_w m c t q k o ho) (iblk_s m c t q (⟨k.val / 128, by have := k.isLt; omega⟩ : Fin 32) o ho))

/-- WHAT POINT `t` WRITES BACK is block `t` of the specification's output. -/
theorem flushed_eq (c : Dev nD) (t : Fin cfg0.N) :
    (dats m 0 c).flushed 3 t = ((cfg0.win 3).blk t).view.read (Elt Ideal) (G m c) := by
  rw [Cert.KernelIdeal.Value.flushed3_A, out_eq]
  obtain ⟨e0, e1, -, -, -, -, -, -⟩ := idx_facts t
  have ht : t.val < 448 := Nat.lt_of_lt_of_eq t.isLt N_0
  funext y
  obtain ⟨p, q, rfl⟩ : ∃ (p : Fin 1024) (q : Fin 256), y = ix2 p q := ⟨y 0, y 1, eq_ix2 y⟩
  have hp := p.isLt
  have hq := q.isLt
  show body (F := Ideal) (iblk m c 0 t) (iblk m c 1 t) (iblk m c 2 t) (ix2 p q) = G m c (((cfg0.win 3).blk t).view.emb (ix2 p q))
  refine (block_entry m c t p q ⟨1024 * (t.val / 56) + p.val, by omega⟩ ⟨256 * (t.val % 56) + q.val, by omega⟩ rfl rfl).trans ?_
  show _ = Cert.Spec.entry _ _ _ ((((cfg0.win 3).blk t).view.emb (ix2 p q)) 0) ((((cfg0.win 3).blk t).view.emb (ix2 p q)) 1)
  congr 1
  · apply Fin.ext
    show 1024 * (t.val / 56) + p.val = win0_3.index t (0 : Fin 2) * 1024 + 1 * p.val
    rw [e0]; omega
  · apply Fin.ext
    show 256 * (t.val % 56) + q.val = win0_3.index t (1 : Fin 2) * 256 + 1 * q.val
    rw [e1]; omega

/-- An entry of the result array is in point `t`'s block iff each coordinate is in the block's range on its axis. -/
theorem mem_blk (t : Fin cfg0.N) (i : S8192x14336.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v3).slice (win0_3.rect t)).set ↔ _
  rw [View.set_slice_whole, Rect.mem_set_unit]
  exact Iff.rfl

/-- THE BLOCKS TILE THE ARRAY: entry `(r, o)` lies in the block of point `56·(r / 1024) + o / 256`. -/
theorem cover (i : S8192x14336.Idx) :
    ∃ t : Fin cfg0.N, (cfg0.win 3).flush t = true ∧ i ∈ ((cfg0.win 3).blk t).view.set := by
  have h0 : (i 0).val < 8192 := (i 0).isLt
  have h1 : (i 1).val < 14336 := (i 1).isLt
  have hN : grid0.N = 448 := N_0
  let t : Fin cfg0.N := ⟨56 * ((i 0).val / 1024) + (i 1).val / 256, by show _ < grid0.N; rw [hN]; omega⟩
  have htv : t.val = 56 * ((i 0).val / 1024) + (i 1).val / 256 := rfl
  obtain ⟨e0, e1, -, -, -, -, -, -⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 256 ≤ (i 1).val ∧ (i 1).val < win0_3.index t (1 : Fin 2) * 256 + 256; rw [e1, htv]; omega

/-- THE RESULT ARRAY after the run is the specification's output. -/
theorem final (c : Dev nD) : (dats m 0 c).arrAt 3 cfg0.N = G m c :=
  (dats m 0 c).arrAt_eq_of_cover 3 (G m c) (fun t _ => flushed_eq m c t) cover

/-- The kernel's run, read: the result array at the specification's output, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KernelValue

end
-- ==== Proof.RefValue.lean ====
/-
  The reference computes the specification's output, as it stands.

  It expands the scales to the weights' shape — repeat each scale row 128 times (a broadcast over a new middle axis and
  a flattening `(g, r, b) ↦ (128·g + r, b)`), then each scale column 128 times (a broadcast over a new last axis and a
  flattening `(o, b, l) ↦ (o, 128·b + l)`) —, so that entry `(o, k)` of the expansion is scale `(o / 128, k / 128)`;
  multiplies the weights by it entry by entry; and contracts the activations' and the product's column axes in one
  matrix product, which over the extended reals is the sum over the 4096 columns.
-/
import proofs.«177809_j41334765257142_2_alg».proof.Proof.Gen.ReferenceIdeal.Read
import proofs.«177809_j41334765257142_2_alg».proof.Proof.Spec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The expanded scales at `(o, k)`: the scale of the 128 × 128 block `(o / 128, k / 128)`. -/
theorem expand_apply (x2 : S112x32.Idx → EReal) (o : Fin 14336) (k : Fin 4096) :
    val_main_v3 (F := Ideal) x2 (ix2 o k) = Cert.Spec.scaleOf x2 o k := by
  have ho := o.isLt
  have hk := k.isLt
  rw [val_main_v3_apply, val_main_v2_apply, val_main_v1_apply, val_main_v0_apply]
  unfold Cert.Spec.scaleOf
  congr 1
  funext a
  apply Fin.ext
  match a with
  | ⟨0, _⟩ =>
    show (((o.val * 4096 + k.val) / 4096) * 32 + (o.val * 4096 + k.val) / 128 % 32) / 4096 = o.val / 128
    omega
  | ⟨1, _⟩ =>
    show (((o.val * 4096 + k.val) / 4096) * 32 + (o.val * 4096 + k.val) / 128 % 32) % 32 = k.val / 128
    omega

/-- THE REFERENCE'S RESULT is the specification's output of its arguments. -/
theorem result_eq (x0 : S8192x4096.Idx → EReal) (x1 : S14336x4096.Idx → EReal) (x2 : S112x32.Idx → EReal) :
    val_main_v5 (F := Ideal) x0 x1 x2 = Cert.Spec.result x0 x1 x2 := by
  funext i
  obtain ⟨t, o, rfl⟩ : ∃ (t : Fin 8192) (o : Fin 14336), i = ix2 t o := ⟨i 0, i 1, eq_ix2 i⟩
  rw [val_main_v5_apply]
  show _ = Cert.Spec.entry x0 x1 x2 t o
  unfold Cert.Spec.entry
  refine Finset.sum_congr rfl fun k _ => ?_
  have el : lidx_main_v5 (ix2 t o) k = ix2 t k := funext fun a => by
    match a with
    | ⟨0, _⟩ => rfl
    | ⟨1, _⟩ => rfl
  have er : ridx_main_v5 (ix2 t o) k = ix2 o k := funext fun a => by
    match a with
    | ⟨0, _⟩ => rfl
    | ⟨1, _⟩ => rfl
  rw [el, er]
  exact congrArg (x0 (ix2 t k) * ·) (congrArg (x1 (ix2 o k) * ·) (expand_apply x2 o k))

end Cert.ReferenceIdeal.RefValue

end
-- ==== Proof.lean ====
/-
  A linear layer with block-quantised weights:
      out (t, o) = ∑ₖ x (t, k) · (w (o, k) · s (o / 128, k / 128)),
  `x` of 8192 × 4096 activations, `w` of 14336 × 4096 weights, `s` of 112 × 32 scales (one per 128 × 128 block of `w`).

  The reference expands the scales to the weights' shape, multiplies, and takes one matrix product over all 4096
  columns (Proof/RefValue.lean).  The kernel tiles the output in 8 × 56 blocks of 1024 × 256; for each block it reads
  1024 rows of `x`, 256 rows of `w` and the matching 256 rows of the row-expanded scales, walks the 4096 columns in
  four runs of 1024, repeats each of a run's eight scale columns 128 times, and adds the runs' matrix products, in
  order, onto a zero accumulator (Proof/Chunk.lean, Proof/Body.lean, Proof/Blocks.lean, Proof/KernelValue.lean).
  Over the extended reals the conversions to bf16 are the identity, a product into a zero accumulator is a plain
  sum, and the four partial sums added in order are the whole sum because addition there is commutative and
  associative with neutral 0 (Proof/Spec.lean).  No distributivity or cancellation is used, so the inputs'
  finiteness is never needed.  No operation was rewritten to idealise the kernel, so the idealisation claim is trivial;
  the three frames are the generated ones (the reference's: its generated run with the result dropped).
-/
import proofs.«177809_j41334765257142_2_alg».proof.Defs
import proofs.«177809_j41334765257142_2_alg».proof.Proof.Gen.Kernel
import proofs.«177809_j41334765257142_2_alg».proof.Proof.Gen.Kernel.Skeleton
import proofs.«177809_j41334765257142_2_alg».proof.Proof.Gen.Kernel.Launch
import proofs.«177809_j41334765257142_2_alg».proof.Proof.Gen.Kernel.Points
import proofs.«177809_j41334765257142_2_alg».proof.Proof.Gen.Kernel.Frame
import proofs.«177809_j41334765257142_2_alg».proof.Proof.Gen.KernelIdeal
import proofs.«177809_j41334765257142_2_alg».proof.Proof.Gen.KernelIdeal.Skeleton
import proofs.«177809_j41334765257142_2_alg».proof.Proof.Gen.KernelIdeal.Launch
import proofs.«177809_j41334765257142_2_alg».proof.Proof.Gen.KernelIdeal.Points
import proofs.«177809_j41334765257142_2_alg».proof.Proof.Gen.KernelIdeal.Frame
import proofs.«177809_j41334765257142_2_alg».proof.Proof.Gen.ReferenceIdeal
import proofs.«177809_j41334765257142_2_alg».proof.Proof.Gen.KernelIdeal.Value
import proofs.«177809_j41334765257142_2_alg».proof.Proof.Gen.ReferenceIdeal.Run
import proofs.«177809_j41334765257142_2_alg».proof.Proof.Gen.ReferenceIdeal.Read
import proofs.«177809_j41334765257142_2_alg».proof.Proof.Gen.Pre_finite_inputs
import proofs.«177809_j41334765257142_2_alg».proof.Proof.KernelValue
import proofs.«177809_j41334765257142_2_alg».proof.Proof.RefValue
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten to idealise the kernel: there is nothing to preserve. -/
theorem preserves : Cert.preserves_Kernel_KernelIdeal := trivial

/-- From memories agreeing on `x`, `w` and `s`, the kernel's result array ends at the specification's output of its
    arguments (`KernelValue.run`) and the reference's at the same function of its own (`RefValue.result_eq`). -/
theorem algebraic : Cert.algebraic_KernelIdeal_ReferenceIdeal := by
  intro m ρ m' ρ' _ hagree
  refine ⟨fun c => Cert.KernelIdeal.KernelValue.G m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
